-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x2048 : Shape := ⟨2, ![2048, 2048]⟩
abbrev S1x2048 : Shape := ⟨2, ![1, 2048]⟩
abbrev S2048x256 : Shape := ⟨2, ![2048, 256]⟩
abbrev S256x2048 : Shape := ⟨2, ![256, 2048]⟩
abbrev S1x256 : Shape := ⟨2, ![1, 256]⟩
abbrev S256 : Shape := ⟨1, ![256]⟩
abbrev S256x1 : Shape := ⟨2, ![256, 1]⟩

abbrev nBuf : Space → Nat
  | .hbm => 5
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .local _ .vmem, ⟨0, _⟩ => ⟨S2048x256, .f32⟩
  | .local _ .vmem, ⟨1, _⟩ => ⟨S2048x256, .f32⟩
  | .local _ .vmem, ⟨2, _⟩ => ⟨S256x2048, .f32⟩
  | .local _ .vmem, ⟨3, _⟩ => ⟨S256x2048, .f32⟩
  | .local _ .vmem, ⟨4, _⟩ => ⟨S1x256, .f32⟩
  | .local _ .vmem, ⟨5, _⟩ => ⟨S1x256, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2048x256_S2048x256_0_0 : ∀ a, (![0, 0] : Fin 2 → Nat) a + S2048x256.size a ≤ S2048x256.size a
  h_S2048x256 : 0 < S2048x256.numel
  inb_S256x2048_S256x2048_0_0 : ∀ a, (![0, 0] : Fin 2 → Nat) a + S256x2048.size a ≤ S256x2048.size a
  h_S256x2048 : 0 < S256x2048.numel
  transposes_S256x2048_p1_0_S2048x256 : S256x2048.Transposes [1, 0] S2048x256
  reduces_S2048x256_S256 : S2048x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x2048.size a
  hwx0_0 : ∀ i : grid0.Coords, EltTy.bits .f32 = 32 ∨ (Rect.block (s := S2048x2048) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .f32 = 32 ∨ (Rect.block (s := S2048x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S2048x2048.size a
  hwx1_4 : ∀ i : grid1.Coords, EltTy.bits .f32 = 32 ∨ (Rect.block (s := S2048x2048) S256x2048.size (cc1_transform_4 i) (hinb1_4 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S256x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S1x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S2048x2048_S2048x2048_1_0 : S2048x2048.Transposes [1, 0] S2048x2048
  reducesTo_S2048x2048_S2048_d0 : S2048x2048.ReducesTo [0] S2048
  h_S_ : 0 < S_.numel
  bcast_S_S2048 : S_.BroadcastsInDim S2048 (![] : Fin 0 → Fin S2048.rank)
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  reducesTo_S2048x2048_S2048_d1 : S2048x2048.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)

variable [Facts₀]

class Facts : Prop extends Facts₀ where

variable [Facts]
-- ==== Proof.K.Body0.lean ====
/-
  The first region computes the column means: at grid point `t` it reads the column block x[:, 256t .. 256t+255]
  and the row block x[256t .. 256t+255, :] of the SAME array, and writes the 256 means
  (sum over i of x[i, j] * x[j, i]) / 2048 into block `t` of the row vector m. This module states, at any
  contents `V` the region may find in the buffers, what each staging buffer holds after the body at every point,
  and proves the body's triple and the pipeline's body obligation from it. Both input windows read one array, so
  each holds it at half the full share.
-/
import proofs.«121079_j30296699306632_1_alg».proof.Proof.Gen.Kernel.Launch
import proofs.«121079_j30296699306632_1_alg».proof.Proof.Gen.Kernel.Skeleton
import proofs.«121079_j30296699306632_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The column block's staging buffer holds the block at every point: the window is fetched at every point, uncut
    and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rCol : Rect S2048x256 := Rect.unit (s := S2048x256) ![0, 0] S2048x256.size inb_S2048x256_S2048x256_0_0
abbrev rRow : Rect S256x2048 := Rect.unit (s := S256x2048) ![0, 0] S256x2048.size inb_S256x2048_S256x2048_0_0
abbrev rMean : Rect S1x256 := Rect.unit (s := S1x256) ![0, 0] S1x256.size inb_S1x256_S1x256_0_0

/-- What the body leaves in the means' staging buffer: its one whole-buffer store of the 256 column means of the
    two blocks. -/
def out0_2 (x0 : Vec F S2048x256 .f32) (x1 : Vec F S256x2048 .f32) : Vec F S1x256 .f32 :=
  View.canon [⟨rMean, k0_pay1 (View.ld x0 rCol) (View.ld x1 rRow)⟩]

/-- The one store covers the buffer. -/
theorem cover0_2 (p0 : Vec F S1x256 .f32) (y : S1x256.Idx) :
    ∃ pc ∈ ([⟨rMean, p0⟩] : List (View.Piece (Elt F) S1x256 .f32)), y ∈ pc.1.set :=
  View.cover_of_tiled [⟨rMean, p0⟩] S1x256.size (by rfl) y

set_option maxHeartbeats 1000000 in
/-- The body on whole staging buffers: the two input buffers at contents `x0`, `x1` and the output buffer at
    anything; it ends with the inputs as they were and the output at the means of `x0`, `x1`. -/
theorem sound_kernel0 (c : Dev nD) (E : Set ℕ) (i : grid0.Coords)
    (arg1 : Memref sig .tc .vmem S2048x256 .f32) (harg1 : arg1.IsWhole) (arg2 : Memref sig .tc .vmem S256x2048 .f32) (harg2 : arg2.IsWhole)
    (arg3 : Memref sig .tc .vmem S1x256 .f32) (harg3 : arg3.IsWhole)
    (x0 : Vec F S2048x256 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__m_kernel i arg1 harg1 arg2 harg2 arg3 harg3) K := by
  simp only [cc0__m_kernel_eq_skeleton]; unfold cc0__m_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data for this region: the arrays as found; after the body each input buffer at its block
    and the output buffer at the means of the two blocks; the two readers of the one input array at its two half
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Share0.lean ====
/-
  The first region's two input windows read ONE array. At the region's entry the core's unscoped buffers, each held
  whole at the full share, are sorted into the pipeline's arrays: the input array is split into its two half shares,
  one per reader; the output vector is held whole. At the exit the halves are joined again (a reader never writes
  its array, so both still hold the entry contents), and the buffers are the core's unscoped buffers at the
  contents updated at the output vector only.
-/
import proofs.«121079_j30296699306632_1_alg».proof.Proof.Gen.Kernel.Launch
import proofs.«121079_j30296699306632_1_alg».proof.Proof.Gen.Kernel.Skeleton
import proofs.«121079_j30296699306632_1_alg».proof.Proof.Gen.Kernel.Points
import proofs.«121079_j30296699306632_1_alg».proof.Proof.K.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The region's arrays sit in two buffers. -/
theorem arrImage0 : Finset.univ.image (Pipeline.arrRef (spec0)) = ({main_arg0, main_v0} : Finset (Ref sig .tc)) := by decide

/-- Every array of the region is an unscoped buffer. -/
theorem arrUnscoped0 : ∀ w, (Pipeline.arrRef spec0 w).isScoped = false := by decide

/-- Contents that agree off the region's arrays give the same rest. -/
theorem rest_congr0 (c : Dev nD) (V₁ V₂ : (b : Ref sig .tc) → Buf (Elt F) ((c : Thread nD τ).loc b))
    (h : ∀ b, b ∉ Finset.univ.image (Pipeline.arrRef spec0) → V₂ b = V₁ b) :
    (Pipeline.unscopedRest (Ix := Unit) (Name := ℕ) (U := UR sig nD τ) (Lvl := ℕ) spec0 c V₂ : sProp 𝕄)
      = Pipeline.unscopedRest spec0 c V₁ := by
  unfold Pipeline.unscopedRest
  exact bigSep_congr fun b hb => by rw [h b (Finset.mem_sdiff.mp hb).2]

/-- ENTRY: the two buffers behind the arrays, whole at the full share at the entry contents, are the pipeline's
    arrays at entry, the input array at its two halves. -/
theorem split0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  unfold Pipeline.arrBufs Dat.arrays
  rw [bigSep_W0, arrImage0, bigSep_insert (by decide), bigSep_singleton]
  have e0 : (View.loc c.tc (cfg0.win 0).arr.view ↦[(cfg0.win 0).arr.view.set]{(dat0 V c).share 0} (fun x => (dat0 V c).arrAt x 0) 0 : sProp 𝕄)
      = (c.tc.loc main_arg0 ↦{fullShare.left} V c main_arg0) := by
    rw [(arr_whole0 0).set_eq_univ]; rfl
  have e1 : (View.loc c.tc (cfg0.win 1).arr.view ↦[(cfg0.win 1).arr.view.set]{(dat0 V c).share 1} (fun x => (dat0 V c).arrAt x 0) 1 : sProp 𝕄)
      = (c.tc.loc main_arg0 ↦{fullShare.right} V c main_arg0) := by
    rw [(arr_whole0 1).set_eq_univ]; rfl
  have e2 : (View.loc c.tc (cfg0.win 2).arr.view ↦[(cfg0.win 2).arr.view.set]{(dat0 V c).share 2} (fun x => (dat0 V c).arrAt x 0) 2 : sProp 𝕄)
      = (c.tc.loc main_v0 ↦{fullShare} V c main_v0) := by
    rw [(arr_whole0 2).set_eq_univ]; rfl
  rw [e0, e1, e2]
  exact (sep_mono (pointsTo_share (PosShare.mem_left_op_right fullShare)).1 .rfl).trans sep_assoc.1

/-- EXIT: the pipeline's arrays after the last point — the input array's two halves still at the entry contents,
    the output vector at what the write-backs left — are the two buffers whole at the full share. -/
theorem join0 (c : Dev nD) :
    (dat0 V c).arrays ((dat0 V c).arrAt · cfg0.N)
      ⊢ (iprop((c.tc.loc main_arg0 ↦{fullShare} V c main_arg0) ∗ (c.tc.loc main_v0 ↦{fullShare} (dat0 V c).arrAt 2 cfg0.N)) : sProp 𝕄) := by
  unfold Dat.arrays
  rw [bigSep_W0]
  have e0 : (View.loc c.tc (cfg0.win 0).arr.view ↦[(cfg0.win 0).arr.view.set]{(dat0 V c).share 0} (fun x => (dat0 V c).arrAt x cfg0.N) 0 : sProp 𝕄)
      = (c.tc.loc main_arg0 ↦{fullShare.left} V c main_arg0) := by
    rw [(arr_whole0 0).set_eq_univ]; dsimp only; rw [(dat0 V c).arrAt_in 0 rfl cfg0.N]; rfl
  have e1 : (View.loc c.tc (cfg0.win 1).arr.view ↦[(cfg0.win 1).arr.view.set]{(dat0 V c).share 1} (fun x => (dat0 V c).arrAt x cfg0.N) 1 : sProp 𝕄)
      = (c.tc.loc main_arg0 ↦{fullShare.right} V c main_arg0) := by
    rw [(arr_whole0 1).set_eq_univ]; dsimp only; rw [(dat0 V c).arrAt_in 1 rfl cfg0.N]; rfl
  have e2 : (View.loc c.tc (cfg0.win 2).arr.view ↦[(cfg0.win 2).arr.view.set]{(dat0 V c).share 2} (fun x => (dat0 V c).arrAt x cfg0.N) 2 : sProp 𝕄)
      = (c.tc.loc main_v0 ↦{fullShare} (dat0 V c).arrAt 2 cfg0.N) := by
    rw [(arr_whole0 2).set_eq_univ]; rfl
  rw [e0, e1, e2]
  exact sep_assoc.2.trans (sep_mono (pointsTo_share (PosShare.mem_left_op_right fullShare)).2 .rfl)

/-- ENTRY, whole: the core's unscoped buffers at the entry contents are the pipeline's arrays at entry and the rest. -/
theorem arrays_of_unscopedBufs0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ (cfgs := cfgs) 0 arrUnscoped0 c (V c)]
  exact sep_mono (split0 V c) .rfl

/-- EXIT, whole: the arrays after the last point and the rest are the core's unscoped buffers at any contents that
    have the output vector at what the write-backs left and agree with the entry contents elsewhere. -/
theorem unscopedBufs_of_arrays0 (c : Dev nD) (V' : (b : Ref sig .tc) → Buf (Elt F) ((c : Thread nD τ).loc b))
    (h0 : V' main_arg0 = V c main_arg0) (h2 : V' main_v0 = (dat0 V c).arrAt 2 cfg0.N)
    (hrest : ∀ b, b ∉ Finset.univ.image (Pipeline.arrRef spec0) → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ (cfgs := cfgs) 0 arrUnscoped0 c V']
  show _ ⊢ iprop(Pipeline.arrBufs spec0 c V' ∗ Pipeline.unscopedRest spec0 c V')
  rw [rest_congr0 c (V c) V' hrest]
  refine sep_mono ((join0 V c).trans (Entails.of_eq ?_)) .rfl
  unfold Pipeline.arrBufs
  rw [arrImage0, bigSep_insert (by decide), bigSep_singleton, h0, h2]
  rfl

end

end Cert.Kernel.Hand

end
-- ==== Proof.K.Body1.lean ====
/- The body half of the frame of the second TensorCore region (the update of the kernel matrix and the product
   with the row of means), at a parameter V: the TensorCore's buffer contents when the region is entered.
   Each window's block at a grid point, what the body's two stores leave in the two output windows' staging
   buffers as functions of the input blocks, the body's separation-logic triple, the pipeline's proof data and
   the body obligation at every grid point. No value mathematics: every statement holds at any float model F. -/
import proofs.«121079_j30296699306632_1_alg».proof.Proof.Gen.Kernel.Launch
import proofs.«121079_j30296699306632_1_alg».proof.Proof.Gen.Kernel.Skeleton
import proofs.«121079_j30296699306632_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 256 x 2048 is checked by a structural recursion over the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 (a block of 256 rows of x) holds that block at every grid point, for any
    proof data over the entry contents whose body leaves the block in place: a fetch puts the block there, and
    where nothing is fetched the block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the block of 256 rows of k). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the whole row of means): its block index is constant, so it is fetched at the
    first grid point only, and at every later point the buffer still holds the one block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store is of a whole staging buffer -/

abbrev r1 : Rect S256x2048 := Rect.unit (s := S256x2048) ![0, 0] S256x2048.size inb_S256x2048_S256x2048_0_0
abbrev r1m : Rect S1x2048 := Rect.unit (s := S1x2048) ![0, 0] S1x2048.size inb_S1x2048_S1x2048_0_0

/-! ## What the body leaves in each output window's buffer -/

/-- Window 3's staging buffer (the block of y) after the body, from the blocks of k and of the means: its one
    store, of the whole buffer. -/
def out1_3 (x1 : Vec F S256x2048 .f32) (x2 : Vec F S1x2048 .f32) : Vec F S256x2048 .f32 :=
  View.canon [⟨r1, k1_pay2 (View.ld x1 r1) (View.ld x2 r1m)⟩]

/-- Window 4's staging buffer (the block of the updated k) after the body, from the blocks of x and of k: its one
    store, of the whole buffer. -/
def out1_4 (x0 x1 : Vec F S256x2048 .f32) : Vec F S256x2048 .f32 :=
  View.canon [⟨r1, k1_pay1 (View.ld x0 r1) (View.ld x1 r1)⟩]

/-- One store through the whole-buffer rectangle covers the buffer, whatever it stores. -/
theorem cover1 (p0 : Vec F S256x2048 .f32) (y : S256x2048.Idx) :
    ∃ pc ∈ ([⟨r1, p0⟩] : List (View.Piece (Elt F) S256x2048 .f32)), y ∈ pc.1.set :=
  View.cover_of_tiled [⟨r1, p0⟩] S256x2048.size (by rfl) y

/-! ## The body's triple -/

set_option maxHeartbeats 1000000 in
/-- The body on whole staging buffers, the three inputs' reading x0, x1, x2 and the two outputs' at anything, runs
    to a continuation that holds the inputs' as they were, window 3's at out1_3 x1 x2 and window 4's at
    out1_4 x0 x1: three whole loads, then per output a load whose value is unused and a whole store. -/
theorem sound_kernel1 (c : Dev nD) (E : Set ℕ) (i : grid1.Coords)
    (arg1 : Memref sig .tc .vmem S256x2048 .f32) (harg1 : arg1.IsWhole)
    (arg2 : Memref sig .tc .vmem S256x2048 .f32) (harg2 : arg2.IsWhole)
    (arg3 : Memref sig .tc .vmem S1x2048 .f32) (harg3 : arg3.IsWhole)
    (arg4 : Memref sig .tc .vmem S256x2048 .f32) (harg4 : arg4.IsWhole)
    (arg5 : Memref sig .tc .vmem S256x2048 .f32) (harg5 : arg5.IsWhole)
    (x0 x1 : Vec F S256x2048 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x1 x2)
            ∗ owns (c : Thread nD τ) arg5 fullShare (out1_4 x0 x1)) -∗ K ⟨⟩))
      ⊢ wp frame (wpE (defs₀ (F := F)) Variants.none c none) E (cc1__yk_kernel i arg1 harg1 arg2 harg2 arg3 harg3 arg4 harg4 arg5 harg5) K := by
  simp only [cc1__yk_kernel_eq_skeleton]; unfold cc1__yk_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data of the region's pipeline on core c: the arrays as the region finds them; after the body at
    grid point t each input's buffer at its block, window 3's at out1_3 and window 4's at out1_4 of the input
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 1 t) (iblk1 V c 2 t)
    | ⟨4, _⟩ => out1_4 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

/-- Each input's current staging buffer holds its block at every grid point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic grid point -/

/-- What the body is called with at grid point t: the invariant, what the core owes, and each window's current
    staging buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the inputs' staging buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The run of the whole program: two regions, nothing between them. The first region leaves the row of column means
  in its output vector and every other buffer as launched; the second reads that row beside the two argument arrays
  and leaves the scaled array and the updated array in the two result buffers. Each region is entered from "every
  unscoped buffer held whole at the contents so far" and leaves the same state at the contents updated at its
  outputs; at the end every unscoped buffer is read off the final state.
-/
import proofs.«121079_j30296699306632_1_alg».proof.Proof.Gen.Kernel.Launch
import proofs.«121079_j30296699306632_1_alg».proof.Proof.Gen.Kernel.Skeleton
import proofs.«121079_j30296699306632_1_alg».proof.Proof.Gen.Kernel.Points
import proofs.«121079_j30296699306632_1_alg».proof.Proof.K.Share0
import proofs.«121079_j30296699306632_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch: what the first region finds. -/
abbrev U0 (c : Dev nD) : Valuation τ sig (Elt F) := fun b => m (c, b)
abbrev B0 : (c : Dev nD) → (b : Ref sig .tc) → Buf (Elt F) ((c : Thread nD τ).loc b) := fun c b => U0 m c b
/-- After the first region: the row of means at what the eight write-backs left, everything else as launched. -/
def U1 (c : Dev nD) : Valuation τ sig (Elt F) :=
  Function.update (U0 m c) main_v0 ((dat0 (B0 m) c).arrAt 2 cfg0.N)
abbrev B1 : (c : Dev nD) → (b : Ref sig .tc) → Buf (Elt F) ((c : Thread nD τ).loc b) := fun c b => U1 m c b
/-- After the second region: the two results at what its write-backs left. -/
def U2 (c : Dev nD) : Valuation τ sig (Elt F) :=
  Function.update (Function.update (U1 m c) main_v1_0 ((dat1 (B1 m) c).arrAt 3 cfg1.N)) main_v1_1 ((dat1 (B1 m) c).arrAt 4 cfg1.N)
abbrev B2 : (c : Dev nD) → (b : Ref sig .tc) → Buf (Elt F) ((c : Thread nD τ).loc b) := fun c b => U2 m c b

theorem U1_of (c : Dev nD) (r : Ref sig .tc) (h : r ≠ main_v0) : U1 m c r = U0 m c r := by
  unfold U1
  exact Function.update_of_ne (StableHlo.devRef_ne_of_ne h : (Proc.devRef .tc r : DevRef τ sig) ≠ Proc.devRef .tc main_v0) _ _
theorem U1_v0 (c : Dev nD) : U1 m c main_v0 = (dat0 (B0 m) c).arrAt 2 cfg0.N := by
  unfold U1; exact Function.update_self _ _ _
theorem U2_of (c : Dev nD) (r : Ref sig .tc) (h0 : r ≠ main_v1_0) (h1 : r ≠ main_v1_1) : U2 m c r = U1 m c r := by
  unfold U2
  rw [Function.update_of_ne (StableHlo.devRef_ne_of_ne h1 : (Proc.devRef .tc r : DevRef τ sig) ≠ Proc.devRef .tc main_v1_1),
    Function.update_of_ne (StableHlo.devRef_ne_of_ne h0 : (Proc.devRef .tc r : DevRef τ sig) ≠ Proc.devRef .tc main_v1_0)]
theorem U2_v1_1 (c : Dev nD) : U2 m c main_v1_1 = (dat1 (B1 m) c).arrAt 4 cfg1.N := by
  unfold U2; exact Function.update_self _ _ _
theorem U2_v1_0 (c : Dev nD) : U2 m c main_v1_0 = (dat1 (B1 m) c).arrAt 3 cfg1.N := by
  unfold U2
  rw [Function.update_of_ne (StableHlo.devRef_ne_of_ne (by decide) : (Proc.devRef .tc main_v1_0 : DevRef τ sig) ≠ Proc.devRef .tc main_v1_1)]
  exact Function.update_self _ _ _

/-- Both arguments reach the end as launched: no region writes them. -/
theorem U2_main_arg0 (c : Dev nD) : U2 m c main_arg0 = m ((c : Thread nD τ).loc main_arg0) :=
  (U2_of m c main_arg0 (by decide) (by decide)).trans ((U1_of m c main_arg0 (by decide)).trans rfl)
theorem U2_main_arg1 (c : Dev nD) : U2 m c main_arg1 = m ((c : Thread nD τ).loc main_arg1) :=
  (U2_of m c main_arg1 (by decide) (by decide)).trans ((U1_of m c main_arg1 (by decide)).trans rfl)

/-- The second region's arrays after its last point are the final contents at their buffers. -/
theorem hF1 (c : Dev nD) : ∀ w : Fin cfg1.W, (dat1 (B1 m) c).arrAt w cfg1.N = B2 m c (Pipeline.arrRef spec1 w)
  | ⟨0, _⟩ => ((dat1 (B1 m) c).arrAt_in 0 rfl _).trans ((A_eq1 (B1 m) c 0).trans (U2_of m c main_arg0 (by decide) (by decide)).symm)
  | ⟨1, _⟩ => ((dat1 (B1 m) c).arrAt_in 1 rfl _).trans ((A_eq1 (B1 m) c 1).trans (U2_of m c main_arg1 (by decide) (by decide)).symm)
  | ⟨2, _⟩ => ((dat1 (B1 m) c).arrAt_in 2 rfl _).trans ((A_eq1 (B1 m) c 2).trans (U2_of m c main_v0 (by decide) (by decide)).symm)
  | ⟨3, _⟩ => (U2_v1_0 m c).symm
  | ⟨4, _⟩ => (U2_v1_1 m c).symm
theorem hrest1 (c : Dev nD) : ∀ b, b ∉ Finset.univ.image (Pipeline.arrRef spec1) → B2 m c b = B1 m c b :=
  fun b hb => U2_of m c b (fun e => hb (Finset.mem_image.mpr ⟨3, Finset.mem_univ _, e.symm⟩))
    (fun e => hb (Finset.mem_image.mpr ⟨4, Finset.mem_univ _, e.symm⟩))
theorem hrest0 (c : Dev nD) : ∀ b, b ∉ Finset.univ.image (Pipeline.arrRef spec0) → B1 m c b = B0 m c b :=
  fun b hb => U1_of m c b (fun e => hb (Finset.mem_image.mpr ⟨2, Finset.mem_univ _, e.symm⟩))

/-! ## The proof data family and the thread state -/

/-- No pipeline has a prefetched table. -/
abbrev tabs : (p : Fin 2) → (pcfgs (F := F) p).Adm := fun p => (cfgs p).toPCfg_adm
/-- Each pipeline's proof data at the contents its region is entered from. -/
def pdats : (p : Fin 2) → (c : Dev nD) → Dat τ (Elt F) Unit ℕ (UR sig nD τ) ℕ (Pipeline.pin (pcfgs (F := F)) tabs p) c
  | ⟨0, _⟩ => fun c => dat0 (B0 m) c
  | ⟨1, _⟩ => fun c => dat1 (B1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (U2 m c) ∗ ∃ r, prngReg c r)

/-! ## The regions as segments -/

set_option backward.isDefEq.respectTransparency.types false in
/-- The first region: entered from the launch contents, left at the contents with the row of means written. Its
    input array is split between its two readers at entry and joined at exit. -/
def reg0 : Pipeline.RegionSeg (pcfgs (F := F)) tabs (pdats m) () defs₀ 𝒱₀ L lv 0 where
  win := winFacts₀0
  block_pos := block_pos0
  stage_whole := stage_whole0
  K := PEmpty
  osem k := k.elim
  ho := Pipeline.OwnSemFacts.none _
  hbody c := (body_obligation0 (B0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (B0 m c)
  hentry c := by
    rw [Pipeline.ownSems0_none]
    have hsplit := arrays_of_unscopedBufs0 (B0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (B0 m c))
        ⊢ (unscopedBufs (Ix := Unit) (Name := ℕ) (U := UR sig nD τ) (Lvl := ℕ) c (B1 m c) : sProp 𝕄) :=
      unscopedBufs_of_arrays0 (B0 m) c (B1 m c) (U1_of m c main_arg0 (by decide)) (U1_v0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered from the contents the first left, left at the final contents. Its five arrays are
    five distinct buffers, each held whole. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B1 m) c).loose
  hwaits := Pipeline.hwaits_of_owed_zero _ _ _ _ L lv 1 fun _ _ => rfl
  pre c := iprop(StableHlo.held (c : Thread nD τ) (Pipeline.ucRefs τ sig) (U1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (B1 m c) (B2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) tabs (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer at the final contents: the two results at what the second region's
    write-backs left, the arguments as launched. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U2 m c b) :=
  Pipeline.θ_run_regions_kit (pcfgs (F := F)) tabs (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U2 m c b)
    (hfin := fun c s' => by
      iintro ⟨⟨Hh, -⟩, HSI⟩
      unfold StableHlo.held
      imodintro
      iapply (pointsTo_read_all (Pipeline.ucRefs τ sig) (fun b => (((c : Thread nD τ)).1, b)) (U2 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (U2_main_arg0 m c),
     (h c _ (mem_uc main_arg1 (by decide))).trans (U2_main_arg1 m c)⟩) (run_all m ρ)

/-- The run with the results named: each result buffer ends at what the second region's write-backs left. -/
theorem run_results : θ_run defs (onTc (τ := τ) (main (F := F))) ⟨m, fun _ => 0, ρ⟩ (fun r => ∀ c : Dev nD,
      r.2.mem ((c.tc : Thread nD τ).loc main_v1_0) = (dat1 (B1 m) c).arrAt 3 cfg1.N
      ∧ r.2.mem ((c.tc : Thread nD τ).loc main_v1_1) = (dat1 (B1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1_0 (by decide))).trans (U2_v1_0 m c),
     (h c _ (mem_uc main_v1_1 (by decide))).trans (U2_v1_1 m c),
     (h c _ (mem_uc main_arg0 (by decide))).trans (U2_main_arg0 m c),
     (h c _ (mem_uc main_arg1 (by decide))).trans (U2_main_arg1 m c)⟩) (run_all m ρ)

end Cert.Kernel.Hand

end
-- ==== Proof.KI.Body0.lean ====
/-
  The first region computes the column means: at grid point `t` it reads the column block x[:, 256t .. 256t+255]
  and the row block x[256t .. 256t+255, :] of the SAME array, and writes the 256 means
  (sum over i of x[i, j] * x[j, i]) / 2048 into block `t` of the row vector m. This module states, at any
  contents `V` the region may find in the buffers, what each staging buffer holds after the body at every point,
  and proves the body's triple and the pipeline's body obligation from it. Both input windows read one array, so
  each holds it at half the full share.
-/
import proofs.«121079_j30296699306632_1_alg».proof.Proof.Gen.KernelIdeal.Launch
import proofs.«121079_j30296699306632_1_alg».proof.Proof.Gen.KernelIdeal.Skeleton
import proofs.«121079_j30296699306632_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The column block's staging buffer holds the block at every point: the window is fetched at every point, uncut
    and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rCol : Rect S2048x256 := Rect.unit (s := S2048x256) ![0, 0] S2048x256.size inb_S2048x256_S2048x256_0_0
abbrev rRow : Rect S256x2048 := Rect.unit (s := S256x2048) ![0, 0] S256x2048.size inb_S256x2048_S256x2048_0_0
abbrev rMean : Rect S1x256 := Rect.unit (s := S1x256) ![0, 0] S1x256.size inb_S1x256_S1x256_0_0

/-- What the body leaves in the means' staging buffer: its one whole-buffer store of the 256 column means of the
    two blocks. -/
def out0_2 (x0 : Vec F S2048x256 .f32) (x1 : Vec F S256x2048 .f32) : Vec F S1x256 .f32 :=
  View.canon [⟨rMean, k0_pay1 (View.ld x0 rCol) (View.ld x1 rRow)⟩]

/-- The one store covers the buffer. -/
theorem cover0_2 (p0 : Vec F S1x256 .f32) (y : S1x256.Idx) :
    ∃ pc ∈ ([⟨rMean, p0⟩] : List (View.Piece (Elt F) S1x256 .f32)), y ∈ pc.1.set :=
  View.cover_of_tiled [⟨rMean, p0⟩] S1x256.size (by rfl) y

set_option maxHeartbeats 1000000 in
/-- The body on whole staging buffers: the two input buffers at contents `x0`, `x1` and the output buffer at
    anything; it ends with the inputs as they were and the output at the means of `x0`, `x1`. -/
theorem sound_kernel0 (c : Dev nD) (E : Set ℕ) (i : grid0.Coords)
    (arg1 : Memref sig .tc .vmem S2048x256 .f32) (harg1 : arg1.IsWhole) (arg2 : Memref sig .tc .vmem S256x2048 .f32) (harg2 : arg2.IsWhole)
    (arg3 : Memref sig .tc .vmem S1x256 .f32) (harg3 : arg3.IsWhole)
    (x0 : Vec F S2048x256 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__m_kernel i arg1 harg1 arg2 harg2 arg3 harg3) K := by
  simp only [cc0__m_kernel_eq_skeleton]; unfold cc0__m_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data for this region: the arrays as found; after the body each input buffer at its block
    and the output buffer at the means of the two blocks; the two readers of the one input array at its two half
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Share0.lean ====
/-
  The first region's two input windows read ONE array. At the region's entry the core's unscoped buffers, each held
  whole at the full share, are sorted into the pipeline's arrays: the input array is split into its two half shares,
  one per reader; the output vector is held whole. At the exit the halves are joined again (a reader never writes
  its array, so both still hold the entry contents), and the buffers are the core's unscoped buffers at the
  contents updated at the output vector only.
-/
import proofs.«121079_j30296699306632_1_alg».proof.Proof.Gen.KernelIdeal.Launch
import proofs.«121079_j30296699306632_1_alg».proof.Proof.Gen.KernelIdeal.Skeleton
import proofs.«121079_j30296699306632_1_alg».proof.Proof.Gen.KernelIdeal.Points
import proofs.«121079_j30296699306632_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The region's arrays sit in two buffers. -/
theorem arrImage0 : Finset.univ.image (Pipeline.arrRef (spec0)) = ({main_arg0, main_v0} : Finset (Ref sig .tc)) := by decide

/-- Every array of the region is an unscoped buffer. -/
theorem arrUnscoped0 : ∀ w, (Pipeline.arrRef spec0 w).isScoped = false := by decide

/-- Contents that agree off the region's arrays give the same rest. -/
theorem rest_congr0 (c : Dev nD) (V₁ V₂ : (b : Ref sig .tc) → Buf (Elt F) ((c : Thread nD τ).loc b))
    (h : ∀ b, b ∉ Finset.univ.image (Pipeline.arrRef spec0) → V₂ b = V₁ b) :
    (Pipeline.unscopedRest (Ix := Unit) (Name := ℕ) (U := UR sig nD τ) (Lvl := ℕ) spec0 c V₂ : sProp 𝕄)
      = Pipeline.unscopedRest spec0 c V₁ := by
  unfold Pipeline.unscopedRest
  exact bigSep_congr fun b hb => by rw [h b (Finset.mem_sdiff.mp hb).2]

/-- ENTRY: the two buffers behind the arrays, whole at the full share at the entry contents, are the pipeline's
    arrays at entry, the input array at its two halves. -/
theorem split0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  unfold Pipeline.arrBufs Dat.arrays
  rw [bigSep_W0, arrImage0, bigSep_insert (by decide), bigSep_singleton]
  have e0 : (View.loc c.tc (cfg0.win 0).arr.view ↦[(cfg0.win 0).arr.view.set]{(dat0 V c).share 0} (fun x => (dat0 V c).arrAt x 0) 0 : sProp 𝕄)
      = (c.tc.loc main_arg0 ↦{fullShare.left} V c main_arg0) := by
    rw [(arr_whole0 0).set_eq_univ]; rfl
  have e1 : (View.loc c.tc (cfg0.win 1).arr.view ↦[(cfg0.win 1).arr.view.set]{(dat0 V c).share 1} (fun x => (dat0 V c).arrAt x 0) 1 : sProp 𝕄)
      = (c.tc.loc main_arg0 ↦{fullShare.right} V c main_arg0) := by
    rw [(arr_whole0 1).set_eq_univ]; rfl
  have e2 : (View.loc c.tc (cfg0.win 2).arr.view ↦[(cfg0.win 2).arr.view.set]{(dat0 V c).share 2} (fun x => (dat0 V c).arrAt x 0) 2 : sProp 𝕄)
      = (c.tc.loc main_v0 ↦{fullShare} V c main_v0) := by
    rw [(arr_whole0 2).set_eq_univ]; rfl
  rw [e0, e1, e2]
  exact (sep_mono (pointsTo_share (PosShare.mem_left_op_right fullShare)).1 .rfl).trans sep_assoc.1

/-- EXIT: the pipeline's arrays after the last point — the input array's two halves still at the entry contents,
    the output vector at what the write-backs left — are the two buffers whole at the full share. -/
theorem join0 (c : Dev nD) :
    (dat0 V c).arrays ((dat0 V c).arrAt · cfg0.N)
      ⊢ (iprop((c.tc.loc main_arg0 ↦{fullShare} V c main_arg0) ∗ (c.tc.loc main_v0 ↦{fullShare} (dat0 V c).arrAt 2 cfg0.N)) : sProp 𝕄) := by
  unfold Dat.arrays
  rw [bigSep_W0]
  have e0 : (View.loc c.tc (cfg0.win 0).arr.view ↦[(cfg0.win 0).arr.view.set]{(dat0 V c).share 0} (fun x => (dat0 V c).arrAt x cfg0.N) 0 : sProp 𝕄)
      = (c.tc.loc main_arg0 ↦{fullShare.left} V c main_arg0) := by
    rw [(arr_whole0 0).set_eq_univ]; dsimp only; rw [(dat0 V c).arrAt_in 0 rfl cfg0.N]; rfl
  have e1 : (View.loc c.tc (cfg0.win 1).arr.view ↦[(cfg0.win 1).arr.view.set]{(dat0 V c).share 1} (fun x => (dat0 V c).arrAt x cfg0.N) 1 : sProp 𝕄)
      = (c.tc.loc main_arg0 ↦{fullShare.right} V c main_arg0) := by
    rw [(arr_whole0 1).set_eq_univ]; dsimp only; rw [(dat0 V c).arrAt_in 1 rfl cfg0.N]; rfl
  have e2 : (View.loc c.tc (cfg0.win 2).arr.view ↦[(cfg0.win 2).arr.view.set]{(dat0 V c).share 2} (fun x => (dat0 V c).arrAt x cfg0.N) 2 : sProp 𝕄)
      = (c.tc.loc main_v0 ↦{fullShare} (dat0 V c).arrAt 2 cfg0.N) := by
    rw [(arr_whole0 2).set_eq_univ]; rfl
  rw [e0, e1, e2]
  exact sep_assoc.2.trans (sep_mono (pointsTo_share (PosShare.mem_left_op_right fullShare)).2 .rfl)

/-- ENTRY, whole: the core's unscoped buffers at the entry contents are the pipeline's arrays at entry and the rest. -/
theorem arrays_of_unscopedBufs0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ (cfgs := cfgs) 0 arrUnscoped0 c (V c)]
  exact sep_mono (split0 V c) .rfl

/-- EXIT, whole: the arrays after the last point and the rest are the core's unscoped buffers at any contents that
    have the output vector at what the write-backs left and agree with the entry contents elsewhere. -/
theorem unscopedBufs_of_arrays0 (c : Dev nD) (V' : (b : Ref sig .tc) → Buf (Elt F) ((c : Thread nD τ).loc b))
    (h0 : V' main_arg0 = V c main_arg0) (h2 : V' main_v0 = (dat0 V c).arrAt 2 cfg0.N)
    (hrest : ∀ b, b ∉ Finset.univ.image (Pipeline.arrRef spec0) → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ (cfgs := cfgs) 0 arrUnscoped0 c V']
  show _ ⊢ iprop(Pipeline.arrBufs spec0 c V' ∗ Pipeline.unscopedRest spec0 c V')
  rw [rest_congr0 c (V c) V' hrest]
  refine sep_mono ((join0 V c).trans (Entails.of_eq ?_)) .rfl
  unfold Pipeline.arrBufs
  rw [arrImage0, bigSep_insert (by decide), bigSep_singleton, h0, h2]
  rfl

end

end Cert.KernelIdeal.Hand

end
-- ==== Proof.KI.Body1.lean ====
/- The body half of the frame of the second TensorCore region (the update of the kernel matrix and the product
   with the row of means), at a parameter V: the TensorCore's buffer contents when the region is entered.
   Each window's block at a grid point, what the body's two stores leave in the two output windows' staging
   buffers as functions of the input blocks, the body's separation-logic triple, the pipeline's proof data and
   the body obligation at every grid point. No value mathematics: every statement holds at any float model F. -/
import proofs.«121079_j30296699306632_1_alg».proof.Proof.Gen.KernelIdeal.Launch
import proofs.«121079_j30296699306632_1_alg».proof.Proof.Gen.KernelIdeal.Skeleton
import proofs.«121079_j30296699306632_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 256 x 2048 is checked by a structural recursion over the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 (a block of 256 rows of x) holds that block at every grid point, for any
    proof data over the entry contents whose body leaves the block in place: a fetch puts the block there, and
    where nothing is fetched the block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the block of 256 rows of k). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the whole row of means): its block index is constant, so it is fetched at the
    first grid point only, and at every later point the buffer still holds the one block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store is of a whole staging buffer -/

abbrev r1 : Rect S256x2048 := Rect.unit (s := S256x2048) ![0, 0] S256x2048.size inb_S256x2048_S256x2048_0_0
abbrev r1m : Rect S1x2048 := Rect.unit (s := S1x2048) ![0, 0] S1x2048.size inb_S1x2048_S1x2048_0_0

/-! ## What the body leaves in each output window's buffer -/

/-- Window 3's staging buffer (the block of y) after the body, from the blocks of k and of the means: its one
    store, of the whole buffer. -/
def out1_3 (x1 : Vec F S256x2048 .f32) (x2 : Vec F S1x2048 .f32) : Vec F S256x2048 .f32 :=
  View.canon [⟨r1, k1_pay2 (View.ld x1 r1) (View.ld x2 r1m)⟩]

/-- Window 4's staging buffer (the block of the updated k) after the body, from the blocks of x and of k: its one
    store, of the whole buffer. -/
def out1_4 (x0 x1 : Vec F S256x2048 .f32) : Vec F S256x2048 .f32 :=
  View.canon [⟨r1, k1_pay1 (View.ld x0 r1) (View.ld x1 r1)⟩]

/-- One store through the whole-buffer rectangle covers the buffer, whatever it stores. -/
theorem cover1 (p0 : Vec F S256x2048 .f32) (y : S256x2048.Idx) :
    ∃ pc ∈ ([⟨r1, p0⟩] : List (View.Piece (Elt F) S256x2048 .f32)), y ∈ pc.1.set :=
  View.cover_of_tiled [⟨r1, p0⟩] S256x2048.size (by rfl) y

/-! ## The body's triple -/

set_option maxHeartbeats 1000000 in
/-- The body on whole staging buffers, the three inputs' reading x0, x1, x2 and the two outputs' at anything, runs
    to a continuation that holds the inputs' as they were, window 3's at out1_3 x1 x2 and window 4's at
    out1_4 x0 x1: three whole loads, then per output a load whose value is unused and a whole store. -/
theorem sound_kernel1 (c : Dev nD) (E : Set ℕ) (i : grid1.Coords)
    (arg1 : Memref sig .tc .vmem S256x2048 .f32) (harg1 : arg1.IsWhole)
    (arg2 : Memref sig .tc .vmem S256x2048 .f32) (harg2 : arg2.IsWhole)
    (arg3 : Memref sig .tc .vmem S1x2048 .f32) (harg3 : arg3.IsWhole)
    (arg4 : Memref sig .tc .vmem S256x2048 .f32) (harg4 : arg4.IsWhole)
    (arg5 : Memref sig .tc .vmem S256x2048 .f32) (harg5 : arg5.IsWhole)
    (x0 x1 : Vec F S256x2048 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x1 x2)
            ∗ owns (c : Thread nD τ) arg5 fullShare (out1_4 x0 x1)) -∗ K ⟨⟩))
      ⊢ wp frame (wpE (defs₀ (F := F)) Variants.none c none) E (cc1__yk_kernel i arg1 harg1 arg2 harg2 arg3 harg3 arg4 harg4 arg5 harg5) K := by
  simp only [cc1__yk_kernel_eq_skeleton]; unfold cc1__yk_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data of the region's pipeline on core c: the arrays as the region finds them; after the body at
    grid point t each input's buffer at its block, window 3's at out1_3 and window 4's at out1_4 of the input
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 1 t) (iblk1 V c 2 t)
    | ⟨4, _⟩ => out1_4 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

/-- Each input's current staging buffer holds its block at every grid point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic grid point -/

/-- What the body is called with at grid point t: the invariant, what the core owes, and each window's current
    staging buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the inputs' staging buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The run of the whole program: two regions, nothing between them. The first region leaves the row of column means
  in its output vector and every other buffer as launched; the second reads that row beside the two argument arrays
  and leaves the scaled array and the updated array in the two result buffers. Each region is entered from "every
  unscoped buffer held whole at the contents so far" and leaves the same state at the contents updated at its
  outputs; at the end every unscoped buffer is read off the final state.
-/
import proofs.«121079_j30296699306632_1_alg».proof.Proof.Gen.KernelIdeal.Launch
import proofs.«121079_j30296699306632_1_alg».proof.Proof.Gen.KernelIdeal.Skeleton
import proofs.«121079_j30296699306632_1_alg».proof.Proof.Gen.KernelIdeal.Points
import proofs.«121079_j30296699306632_1_alg».proof.Proof.KI.Share0
import proofs.«121079_j30296699306632_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch: what the first region finds. -/
abbrev U0 (c : Dev nD) : Valuation τ sig (Elt F) := fun b => m (c, b)
abbrev B0 : (c : Dev nD) → (b : Ref sig .tc) → Buf (Elt F) ((c : Thread nD τ).loc b) := fun c b => U0 m c b
/-- After the first region: the row of means at what the eight write-backs left, everything else as launched. -/
def U1 (c : Dev nD) : Valuation τ sig (Elt F) :=
  Function.update (U0 m c) main_v0 ((dat0 (B0 m) c).arrAt 2 cfg0.N)
abbrev B1 : (c : Dev nD) → (b : Ref sig .tc) → Buf (Elt F) ((c : Thread nD τ).loc b) := fun c b => U1 m c b
/-- After the second region: the two results at what its write-backs left. -/
def U2 (c : Dev nD) : Valuation τ sig (Elt F) :=
  Function.update (Function.update (U1 m c) main_v1_0 ((dat1 (B1 m) c).arrAt 3 cfg1.N)) main_v1_1 ((dat1 (B1 m) c).arrAt 4 cfg1.N)
abbrev B2 : (c : Dev nD) → (b : Ref sig .tc) → Buf (Elt F) ((c : Thread nD τ).loc b) := fun c b => U2 m c b

theorem U1_of (c : Dev nD) (r : Ref sig .tc) (h : r ≠ main_v0) : U1 m c r = U0 m c r := by
  unfold U1
  exact Function.update_of_ne (StableHlo.devRef_ne_of_ne h : (Proc.devRef .tc r : DevRef τ sig) ≠ Proc.devRef .tc main_v0) _ _
theorem U1_v0 (c : Dev nD) : U1 m c main_v0 = (dat0 (B0 m) c).arrAt 2 cfg0.N := by
  unfold U1; exact Function.update_self _ _ _
theorem U2_of (c : Dev nD) (r : Ref sig .tc) (h0 : r ≠ main_v1_0) (h1 : r ≠ main_v1_1) : U2 m c r = U1 m c r := by
  unfold U2
  rw [Function.update_of_ne (StableHlo.devRef_ne_of_ne h1 : (Proc.devRef .tc r : DevRef τ sig) ≠ Proc.devRef .tc main_v1_1),
    Function.update_of_ne (StableHlo.devRef_ne_of_ne h0 : (Proc.devRef .tc r : DevRef τ sig) ≠ Proc.devRef .tc main_v1_0)]
theorem U2_v1_1 (c : Dev nD) : U2 m c main_v1_1 = (dat1 (B1 m) c).arrAt 4 cfg1.N := by
  unfold U2; exact Function.update_self _ _ _
theorem U2_v1_0 (c : Dev nD) : U2 m c main_v1_0 = (dat1 (B1 m) c).arrAt 3 cfg1.N := by
  unfold U2
  rw [Function.update_of_ne (StableHlo.devRef_ne_of_ne (by decide) : (Proc.devRef .tc main_v1_0 : DevRef τ sig) ≠ Proc.devRef .tc main_v1_1)]
  exact Function.update_self _ _ _

/-- Both arguments reach the end as launched: no region writes them. -/
theorem U2_main_arg0 (c : Dev nD) : U2 m c main_arg0 = m ((c : Thread nD τ).loc main_arg0) :=
  (U2_of m c main_arg0 (by decide) (by decide)).trans ((U1_of m c main_arg0 (by decide)).trans rfl)
theorem U2_main_arg1 (c : Dev nD) : U2 m c main_arg1 = m ((c : Thread nD τ).loc main_arg1) :=
  (U2_of m c main_arg1 (by decide) (by decide)).trans ((U1_of m c main_arg1 (by decide)).trans rfl)

/-- The second region's arrays after its last point are the final contents at their buffers. -/
theorem hF1 (c : Dev nD) : ∀ w : Fin cfg1.W, (dat1 (B1 m) c).arrAt w cfg1.N = B2 m c (Pipeline.arrRef spec1 w)
  | ⟨0, _⟩ => ((dat1 (B1 m) c).arrAt_in 0 rfl _).trans ((A_eq1 (B1 m) c 0).trans (U2_of m c main_arg0 (by decide) (by decide)).symm)
  | ⟨1, _⟩ => ((dat1 (B1 m) c).arrAt_in 1 rfl _).trans ((A_eq1 (B1 m) c 1).trans (U2_of m c main_arg1 (by decide) (by decide)).symm)
  | ⟨2, _⟩ => ((dat1 (B1 m) c).arrAt_in 2 rfl _).trans ((A_eq1 (B1 m) c 2).trans (U2_of m c main_v0 (by decide) (by decide)).symm)
  | ⟨3, _⟩ => (U2_v1_0 m c).symm
  | ⟨4, _⟩ => (U2_v1_1 m c).symm
theorem hrest1 (c : Dev nD) : ∀ b, b ∉ Finset.univ.image (Pipeline.arrRef spec1) → B2 m c b = B1 m c b :=
  fun b hb => U2_of m c b (fun e => hb (Finset.mem_image.mpr ⟨3, Finset.mem_univ _, e.symm⟩))
    (fun e => hb (Finset.mem_image.mpr ⟨4, Finset.mem_univ _, e.symm⟩))
theorem hrest0 (c : Dev nD) : ∀ b, b ∉ Finset.univ.image (Pipeline.arrRef spec0) → B1 m c b = B0 m c b :=
  fun b hb => U1_of m c b (fun e => hb (Finset.mem_image.mpr ⟨2, Finset.mem_univ _, e.symm⟩))

/-! ## The proof data family and the thread state -/

/-- No pipeline has a prefetched table. -/
abbrev tabs : (p : Fin 2) → (pcfgs (F := F) p).Adm := fun p => (cfgs p).toPCfg_adm
/-- Each pipeline's proof data at the contents its region is entered from. -/
def pdats : (p : Fin 2) → (c : Dev nD) → Dat τ (Elt F) Unit ℕ (UR sig nD τ) ℕ (Pipeline.pin (pcfgs (F := F)) tabs p) c
  | ⟨0, _⟩ => fun c => dat0 (B0 m) c
  | ⟨1, _⟩ => fun c => dat1 (B1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (U2 m c) ∗ ∃ r, prngReg c r)

/-! ## The regions as segments -/

set_option backward.isDefEq.respectTransparency.types false in
/-- The first region: entered from the launch contents, left at the contents with the row of means written. Its
    input array is split between its two readers at entry and joined at exit. -/
def reg0 : Pipeline.RegionSeg (pcfgs (F := F)) tabs (pdats m) () defs₀ 𝒱₀ L lv 0 where
  win := winFacts₀0
  block_pos := block_pos0
  stage_whole := stage_whole0
  K := PEmpty
  osem k := k.elim
  ho := Pipeline.OwnSemFacts.none _
  hbody c := (body_obligation0 (B0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (B0 m c)
  hentry c := by
    rw [Pipeline.ownSems0_none]
    have hsplit := arrays_of_unscopedBufs0 (B0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (B0 m c))
        ⊢ (unscopedBufs (Ix := Unit) (Name := ℕ) (U := UR sig nD τ) (Lvl := ℕ) c (B1 m c) : sProp 𝕄) :=
      unscopedBufs_of_arrays0 (B0 m) c (B1 m c) (U1_of m c main_arg0 (by decide)) (U1_v0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered from the contents the first left, left at the final contents. Its five arrays are
    five distinct buffers, each held whole. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B1 m) c).loose
  hwaits := Pipeline.hwaits_of_owed_zero _ _ _ _ L lv 1 fun _ _ => rfl
  pre c := iprop(StableHlo.held (c : Thread nD τ) (Pipeline.ucRefs τ sig) (U1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (B1 m c) (B2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) tabs (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer at the final contents: the two results at what the second region's
    write-backs left, the arguments as launched. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U2 m c b) :=
  Pipeline.θ_run_regions_kit (pcfgs (F := F)) tabs (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U2 m c b)
    (hfin := fun c s' => by
      iintro ⟨⟨Hh, -⟩, HSI⟩
      unfold StableHlo.held
      imodintro
      iapply (pointsTo_read_all (Pipeline.ucRefs τ sig) (fun b => (((c : Thread nD τ)).1, b)) (U2 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (U2_main_arg0 m c),
     (h c _ (mem_uc main_arg1 (by decide))).trans (U2_main_arg1 m c)⟩) (run_all m ρ)

/-- The run with the results named: each result buffer ends at what the second region's write-backs left. -/
theorem run_results : θ_run defs (onTc (τ := τ) (main (F := F))) ⟨m, fun _ => 0, ρ⟩ (fun r => ∀ c : Dev nD,
      r.2.mem ((c.tc : Thread nD τ).loc main_v1_0) = (dat1 (B1 m) c).arrAt 3 cfg1.N
      ∧ r.2.mem ((c.tc : Thread nD τ).loc main_v1_1) = (dat1 (B1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1_0 (by decide))).trans (U2_v1_0 m c),
     (h c _ (mem_uc main_v1_1 (by decide))).trans (U2_v1_1 m c),
     (h c _ (mem_uc main_arg0 (by decide))).trans (U2_main_arg0 m c),
     (h c _ (mem_uc main_arg1 (by decide))).trans (U2_main_arg1 m c)⟩) (run_all m ρ)

end Cert.KernelIdeal.Hand

end
-- ==== Proof.Spec.lean ====
/-
  The Hebbian-style update, stated index by index over the extended reals.

  For a square array `x` and a kernel array `k` (both 2048 × 2048):
  • `colMean x` (a single row): entry `(0, j)` is `(∑ i, x[i,j] * x[j,i]) / 2048`;
  • `scaled x k`: entry `(i, j)` is `(1 * k[i,j]) * colMean x (0, j)`;
  • `updated x k`: entry `(i, j)` is `k[i,j] + c * (x[i,j] * ((∑ l, x[i,l]) / 2048))`, with `c` the single-precision
    word for 0.005.
  The float literals stay as the words that encode them; both programs carry the same words, so they are never evaluated.
-/
import Idealize.ShloMosaic.PureOps.Ideal
import Idealize.ShloMosaic.Lib.ValueIdx

noncomputable section

open scoped BigOperators

namespace Cert.Hebb

open Idealize.ShloMosaic ValueIdx

/-- The square arrays' shape. -/
abbrev Sq : Shape := ⟨2, ![2048, 2048]⟩
/-- The shape of a single row of 2048 entries. -/
abbrev Row : Shape := ⟨2, ![1, 2048]⟩

/-- The word of the divisor 2048.0. -/
abbrev wN : Ideal .f32 := Ideal.ofBits .f32 0x45000000#32
/-- The word of the factor 1.0. -/
abbrev wOne : Ideal .f32 := Ideal.ofBits .f32 0x3F800000#32
/-- The word of the step 0.005. -/
abbrev wStep : Ideal .f32 := Ideal.ofBits .f32 0x3BA3D70A#32

/-- Column `j` of `x` against row `j` of `x`, averaged: `(∑ i, x[i,j] * x[j,i]) / 2048`. -/
def colMeanAt (x : FVec Ideal Sq .f32) (j : Fin 2048) : EReal :=
  Ideal.div (∑ i : Fin 2048, x (ix2 i j) * x (ix2 j i)) wN

/-- Row `i` of `x` averaged: `(∑ l, x[i,l]) / 2048`. -/
def rowMeanAt (x : FVec Ideal Sq .f32) (i : Fin 2048) : EReal :=
  Ideal.div (∑ l : Fin 2048, x (ix2 i l)) wN

/-- The row of column-against-row means. -/
def colMean (x : FVec Ideal Sq .f32) : FVec Ideal Row .f32 :=
  fun idx => colMeanAt x (idx 1)

/-- `k` (times one) scaled column by column by `colMean x`. -/
def scaled (x k : FVec Ideal Sq .f32) : FVec Ideal Sq .f32 :=
  fun idx => (wOne * k (ix2 (idx 0) (idx 1))) * colMeanAt x (idx 1)

/-- `k` plus the step times `x` scaled row by row by its row means. -/
def updated (x k : FVec Ideal Sq .f32) : FVec Ideal Sq .f32 :=
  fun idx => k (ix2 (idx 0) (idx 1)) + wStep * (x (ix2 (idx 0) (idx 1)) * rowMeanAt x (idx 0))

/-- `colMean` at an index given by coordinates. -/
theorem colMean_ix2 (x : FVec Ideal Sq .f32) (u : Fin 1) (j : Fin 2048) : colMean x (ix2 u j) = colMeanAt x j := rfl

/-- `scaled` at an index given by coordinates. -/
theorem scaled_ix2 (x k : FVec Ideal Sq .f32) (i j : Fin 2048) :
    scaled x k (ix2 i j) = (wOne * k (ix2 i j)) * colMeanAt x j := rfl

/-- `updated` at an index given by coordinates. -/
theorem updated_ix2 (x k : FVec Ideal Sq .f32) (i j : Fin 2048) :
    updated x k (ix2 i j) = k (ix2 i j) + wStep * (x (ix2 i j) * rowMeanAt x i) := rfl

end Cert.Hebb

end
-- ==== Proof.Payload.lean ====
/-
  The three payloads of the kernel read at one index, block by block.

  A block of the column means: the lane sum over the rows of a column block of `x` times the transposed row block,
  divided by 2048. A block of the updated array: the block of `k` plus the step times the block of `x` scaled by its
  row means (a lane sum along the row, kept as a column and broadcast back). A block of the scaled array: one times the
  block of `k`, times the row of column means broadcast over the block's rows. Each block is read through an arbitrary
  map `e` of block coordinates into array coordinates.
-/
import proofs.«121079_j30296699306632_1_alg».proof.Proof.Spec
import proofs.«121079_j30296699306632_1_alg».proof.Proof.Gen.KernelIdeal.Skeleton
import Idealize.ShloMosaic.Lib.ValueLayout
import Idealize.ShloMosaic.PureOps.Ideal.Laws

noncomputable section

open scoped BigOperators

namespace Cert.Hebb

open Idealize.ShloMosaic ValueIdx
open Cert.KernelIdeal (S2048x256 S256x2048 S1x256 S1x2048 S256 S256x1)

/-! ## Layout operations that keep a reduced axis as a unit column -/

section Layout
variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane sums -/

/-- The index a sum over the rows inserts into a column index is `(i, q)`. -/
theorem lift_rows (h : S2048x256.Reduces [0] S256) (q : Fin 256) (i : Fin 2048) : h.lift (ix1 q) i = ix2 i q := by
  funext a; refine Fin.ext ?_; match a with | ⟨0, _⟩ => rfl | ⟨1, _⟩ => rfl

/-- The index a sum along a row inserts into a row index is `(p, j)`. -/
theorem lift_cols (h : S256x2048.Reduces [1] S256) (p : Fin 256) (j : Fin 2048) : h.lift (ix1 p) j = ix2 p j := by
  funext a; refine Fin.ext ?_; match a with | ⟨0, _⟩ => rfl | ⟨1, _⟩ => rfl

/-- The lane sum over the rows of a column block, at column `q`. -/
theorem sum_rows_apply (src : FVec Ideal S2048x256 .f32) (h : S2048x256.Reduces [0] S256) (hφ : FKind.Formats .f32)
    (hacc : (0x00000000#32 : BitVec 32) = FKind.add.neutral .f32 hφ) (q : Fin 256) :
    multiReduction .add [0] S256 src 0x00000000#32 h hφ hacc (ix1 q) = ∑ i : Fin 2048, src (ix2 i q) :=
  (Ideal.multiReduction_add_single src _ h hφ hacc (ix1 q)).trans
    (Finset.sum_congr rfl fun i _ => congrArg src (lift_rows h q i))

/-- The lane sum along the rows of a row block, at row `p`. -/
theorem sum_cols_apply (src : FVec Ideal S256x2048 .f32) (h : S256x2048.Reduces [1] S256) (hφ : FKind.Formats .f32)
    (hacc : (0x00000000#32 : BitVec 32) = FKind.add.neutral .f32 hφ) (p : Fin 256) :
    multiReduction .add [1] S256 src 0x00000000#32 h hφ hacc (ix1 p) = ∑ j : Fin 2048, src (ix2 p j) :=
  (Ideal.multiReduction_add_single src _ h hφ hacc (ix1 p)).trans
    (Finset.sum_congr rfl fun j _ => congrArg src (lift_cols h p j))

/-! ## The payloads at an index -/

/-- A block of the column means: entry `(0, q)` of the first region's payload is `colMean x` at `(0, e q)`, when the
    column block `v0` and the row block `v1` read `x` through `e`. -/
theorem colMean_block (v0 : FVec Ideal S2048x256 .f32) (v1 : FVec Ideal S256x2048 .f32) (x : FVec Ideal Sq .f32)
    (e : Fin 256 → Fin 2048)
    (h0 : ∀ (i : Fin 2048) (q : Fin 256), v0 (ix2 i q) = x (ix2 i (e q)))
    (h1 : ∀ (q : Fin 256) (i : Fin 2048), v1 (ix2 q i) = x (ix2 (e q) i)) (q : Fin 256) :
    Cert.KernelIdeal.Gen.k0_pay1 (F := Ideal) v0 v1 (ix2 (0 : Fin 1) q) = colMean x (ix2 (0 : Fin 1) (e q)) := by
  refine Eq.trans ?_ (colMean_ix2 x 0 (e q)).symm
  unfold Cert.KernelIdeal.Gen.k0_pay1 colMeanAt
  refine (divf_apply _ _ _).trans ?_
  refine congrArg (Ideal.div · wN) ?_
  refine (shapeCast_a_1a_apply _ _ (0 : Fin 1) q).trans ?_
  refine (sum_rows_apply _ _ _ _ q).trans ?_
  refine Finset.sum_congr rfl fun i _ => ?_
  refine (mulf_apply _ _ _).trans ?_
  rw [transpose_ix2_apply, h0, h1]

/-- A block of the updated array: entry `(p, q)` of the second region's first payload is `updated x k` at `(e p, q)`,
    when the row blocks `v0` and `v1` read `x` and `k` through `e`. -/
theorem updated_block (v0 v1 : FVec Ideal S256x2048 .f32) (x k : FVec Ideal Sq .f32) (e : Fin 256 → Fin 2048)
    (h0 : ∀ (p : Fin 256) (j : Fin 2048), v0 (ix2 p j) = x (ix2 (e p) j))
    (h1 : ∀ (p : Fin 256) (j : Fin 2048), v1 (ix2 p j) = k (ix2 (e p) j)) (p : Fin 256) (q : Fin 2048) :
    Cert.KernelIdeal.Gen.k1_pay1 (F := Ideal) v0 v1 (ix2 p q) = updated x k (ix2 (e p) q) := by
  refine Eq.trans ?_ (updated_ix2 x k (e p) q).symm
  unfold Cert.KernelIdeal.Gen.k1_pay1 rowMeanAt
  refine (addf_apply _ _ _).trans ?_
  refine congrArg₂ (· + ·) (h1 p q) ?_
  refine (mulf_apply _ _ _).trans ?_
  refine congrArg (wStep * ·) ?_
  refine (mulf_apply _ _ _).trans ?_
  refine congrArg₂ (· * ·) (h0 p q) ?_
  refine (broadcastTo_a1_ab_apply _ _ p q).trans ?_
  refine (divf_apply _ _ _).trans ?_
  refine congrArg (Ideal.div · wN) ?_
  refine (shapeCast_a_a1_apply _ _ p (0 : Fin 1)).trans ?_
  refine (sum_cols_apply _ _ _ _ p).trans ?_
  exact Finset.sum_congr rfl fun j _ => h0 p j

/-- A block of the scaled array: entry `(p, q)` of the second region's second payload is `scaled x k` at `(e p, q)`,
    when the row block `v1` reads `k` through `e` and `v2` is the row of column means of `x`. -/
theorem scaled_block (v1 : FVec Ideal S256x2048 .f32) (v2 : FVec Ideal S1x2048 .f32) (x k : FVec Ideal Sq .f32)
    (e : Fin 256 → Fin 2048)
    (h1 : ∀ (p : Fin 256) (j : Fin 2048), v1 (ix2 p j) = k (ix2 (e p) j))
    (h2 : ∀ j : Fin 2048, v2 (ix2 (0 : Fin 1) j) = colMean x (ix2 (0 : Fin 1) j)) (p : Fin 256) (q : Fin 2048) :
    Cert.KernelIdeal.Gen.k1_pay2 (F := Ideal) v1 v2 (ix2 p q) = scaled x k (ix2 (e p) q) := by
  refine Eq.trans ?_ (scaled_ix2 x k (e p) q).symm
  unfold Cert.KernelIdeal.Gen.k1_pay2
  refine (mulf_apply _ _ _).trans ?_
  refine congrArg₂ (· * ·) ?_ ?_
  · refine (mulf_apply _ _ _).trans ?_
    exact congrArg (wOne * ·) (h1 p q)
  · refine (broadcastTo_1b_ab_apply _ _ p q).trans ?_
    rw [shapeCast_self]
    exact (h2 q).trans (colMean_ix2 x 0 q)

end Cert.Hebb

end
-- ==== Proof.KI.Final0.lean ====
/-
  The row of column means after the first region's last grid point, as ONE function of the region's input array.

  Grid point `t` reads the column block x[:, 256t .. 256t+255] and the row block x[256t .. 256t+255, :] and writes
  back the 256 means of its columns into block `t` of the row vector. An element of a block sits in its array, on each
  axis, at the block index times the block's size plus its own coordinate; the three block indices are (0, t), (t, 0)
  and (0, t). So what point `t` writes back is block `t` of the row of column means of `x`; column `j` of the row is
  covered by point `j / 256`; hence the row ends holding the column means of `x`.
-/
import proofs.«121079_j30296699306632_1_alg».proof.Proof.KI.Body0
import proofs.«121079_j30296699306632_1_alg».proof.Proof.Spec
import proofs.«121079_j30296699306632_1_alg».proof.Proof.Payload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Cert.Hebb ValueIdx

section
variable (V : (c : Dev nD) → (b : Ref sig .tc) → Buf (Elt Ideal) ((c : Thread nD τ).loc b))

/-- The zero offsets of the whole-buffer rectangles, however spelt. -/
theorem zeroOff0 : (![0, 0] : Fin 2 → Nat) = fun _ => 0 := funext fun a => by fin_cases a <;> rfl

/-- The three block indices at grid point `t`, decided once over the grid: the column block is block (0, t) of `x`, the
    row block is block (t, 0) of `x`, the means are block (0, t) of the row vector. -/
theorem blockIdx0 : ∀ t : Fin cfg0.N, win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The column block at point `t` reads the input array at the same row and at column `256 t +` its own. -/
theorem colBlock_apply (c : Dev nD) (t : Fin cfg0.N) (y : S2048x256.Idx) (k : S2048x2048.Idx)
    (hk0 : (k 0).val = (y 0).val) (hk1 : (k 1).val = 256 * t.val + (y 1).val) :
    (iblk0 V c 0 t : Vec Ideal S2048x256 .f32) y = (V c main_arg0 : S2048x2048.Idx → Elt Ideal .f32) k := by
  obtain ⟨e0, e1, -⟩ := blockIdx0 t
  unfold iblk0
  rw [View.read_apply]
  show V c main_arg0 _ = V c main_arg0 _
  congr 1
  funext a
  apply Fin.ext
  match a with
  | ⟨0, _⟩ => show win0_0.index t 0 * 2048 + 1 * (y 0).val = (k 0).val; rw [e0, hk0]; omega
  | ⟨1, _⟩ => show win0_0.index t 1 * 256 + 1 * (y 1).val = (k 1).val; rw [e1, hk1]; omega

/-- The row block at point `t` reads the input array at row `256 t +` its own and at the same column. -/
theorem rowBlock_apply (c : Dev nD) (t : Fin cfg0.N) (y : S256x2048.Idx) (k : S2048x2048.Idx)
    (hk0 : (k 0).val = 256 * t.val + (y 0).val) (hk1 : (k 1).val = (y 1).val) :
    (iblk0 V c 1 t : Vec Ideal S256x2048 .f32) y = (V c main_arg0 : S2048x2048.Idx → Elt Ideal .f32) k := by
  obtain ⟨-, -, e2, e3, -⟩ := blockIdx0 t
  unfold iblk0
  rw [View.read_apply]
  show V c main_arg0 _ = V c main_arg0 _
  congr 1
  funext a
  apply Fin.ext
  match a with
  | ⟨0, _⟩ => show win0_1.index t 0 * 256 + 1 * (y 0).val = (k 0).val; rw [e2, hk0]; omega
  | ⟨1, _⟩ => show win0_1.index t 1 * 2048 + 1 * (y 1).val = (k 1).val; rw [e3, hk1]; omega

/-- The offset of block `T` plus a coordinate inside the block stays inside the array. -/
theorem blockOff_lt (T : ℕ) (hT : T < 8) (q : Fin 256) : 256 * T + q.val < 2048 := by have := q.isLt; omega

/-- The means of a column block and a row block that read `x` at offset `256 T`, at any index of the block of means,
    are the column means of `x` at the index `256 T` further along the row. -/
theorem means_point (v0 : Vec Ideal S2048x256 .f32) (v1 : Vec Ideal S256x2048 .f32) (x : FVec Ideal Sq .f32)
    (T : ℕ) (hT : T < 8)
    (h0 : ∀ (i : Fin 2048) (q : Fin 256), v0 (ix2 i q) = x (ix2 i ⟨256 * T + q.val, blockOff_lt T hT q⟩))
    (h1 : ∀ (q : Fin 256) (i : Fin 2048), v1 (ix2 q i) = x (ix2 ⟨256 * T + q.val, blockOff_lt T hT q⟩ i))
    (j : S1x256.Idx) (i' : S1x2048.Idx) (hi : (i' 1).val = 256 * T + (j 1).val) :
    k0_pay1 (F := Ideal) v0 v1 j = colMean x i' := by
  obtain ⟨u, q, rfl⟩ : ∃ (u : Fin 1) (q : Fin 256), j = ix2 u q := ⟨j 0, j 1, eq_ix2 j⟩
  obtain ⟨u', r, rfl⟩ : ∃ (u' : Fin 1) (r : Fin 2048), i' = ix2 u' r := ⟨i' 0, i' 1, eq_ix2 i'⟩
  obtain rfl : u = 0 := Subsingleton.elim _ _
  obtain rfl : u' = 0 := Subsingleton.elim _ _
  obtain rfl : r = ⟨256 * T + q.val, blockOff_lt T hT q⟩ := Fin.ext hi
  exact colMean_block v0 v1 x (fun q => ⟨256 * T + q.val, blockOff_lt T hT q⟩) h0 h1 q

/-- WHAT POINT `t` WRITES BACK is block `t` of the row of column means of the input array. -/
theorem flushed0_2_eq (c : Dev nD) (x : FVec Ideal Sq .f32) (hx : V c main_arg0 = x) (t : Fin cfg0.N) :
    (dat0 V c).flushed 2 t = ((cfg0.win 2).blk t).view.read (Elt Ideal) (colMean x) := by
  show (cfg0.win 2).cut (grid0.coords t) ((dat0 V c).after 2 t) = _
  rw [after0_2]
  unfold out0_2
  rw [View.canon_unit_zero zeroOff0]
  simp only [View.ld_unit_zero (S := S2048x256) zeroOff0, View.ld_unit_zero (S := S256x2048) zeroOff0]
  have hN : cfg0.N = 8 := N_0
  have ht : t.val < 8 := by have := t.isLt; omega
  obtain ⟨-, -, -, -, e4, e5⟩ := blockIdx0 t
  funext j
  show k0_pay1 (F := Ideal) (iblk0 V c 0 t) (iblk0 V c 1 t) j = colMean x (((cfg0.win 2).blk t).view.emb j)
  refine means_point (iblk0 V c 0 t) (iblk0 V c 1 t) x t.val ht (fun i q => ?_) (fun q i => ?_) j _ ?_
  · rw [← hx]; exact colBlock_apply V c t (ix2 i q) _ rfl rfl
  · rw [← hx]; exact rowBlock_apply V c t (ix2 q i) _ rfl rfl
  · show win0_2.index t (1 : Fin 2) * 256 + 1 * (j 1).val = 256 * t.val + (j 1).val
    rw [e5]; omega

/-- An index of the row vector is in point `t`'s block iff each coordinate is in the block's range on its axis. -/
theorem mem_blk0_2 (t : Fin cfg0.N) (i : S1x2048.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v0).slice (win0_2.rect t)).set ↔ _
  rw [View.set_slice_whole, Rect.mem_set_unit]
  exact Iff.rfl

/-- Every index of the row vector is in some point's block: column `j` in that of point `j / 256`. -/
theorem cover0_2_arr (i : S1x2048.Idx) :
    ∃ t : Fin cfg0.N, (cfg0.win 2).flush t = true ∧ i ∈ ((cfg0.win 2).blk t).view.set := by
  have hN : cfg0.N = 8 := N_0
  have hi0 : (i 0).val < 1 := (i 0).isLt
  have hi1 : (i 1).val < 2048 := (i 1).isLt
  refine ⟨⟨(i 1).val / 256, by rw [hN]; omega⟩, flush0_2 _, ?_⟩
  obtain ⟨-, -, -, -, e4, e5⟩ := blockIdx0 ⟨(i 1).val / 256, by rw [hN]; omega⟩
  rw [mem_blk0_2]
  intro a
  match a with
  | ⟨0, _⟩ =>
    show win0_2.index _ (0 : Fin 2) * 1 ≤ (i 0).val ∧ (i 0).val < win0_2.index _ (0 : Fin 2) * 1 + 1
    rw [e4]; omega
  | ⟨1, _⟩ =>
    show win0_2.index _ (1 : Fin 2) * 256 ≤ (i 1).val ∧ (i 1).val < win0_2.index _ (1 : Fin 2) * 256 + 256
    rw [e5]
    show (i 1).val / 256 * 256 ≤ (i 1).val ∧ (i 1).val < (i 1).val / 256 * 256 + 256
    omega

/-- THE ROW VECTOR after the region's last point is the row of column means of the region's input array. -/
theorem final0_2 (c : Dev nD) (x : FVec Ideal Sq .f32) (hx : V c main_arg0 = x) :
    (dat0 V c).arrAt 2 cfg0.N = colMean x :=
  (dat0 V c).arrAt_eq_of_cover 2 (colMean x) (fun t _ => flushed0_2_eq V c x hx t) cover0_2_arr

end

end Cert.KernelIdeal.Hand

end
-- ==== Proof.KI.Final1.lean ====
/- The second TensorCore region's two output arrays after its last grid point, at the ideal float model: each is ONE
   function of the region's entry contents. What a grid point writes back is a block of 256 rows of that function
   (the body's payload on the blocks of 256 rows of x and of k, and on the row of means), the eight row blocks tile
   the 2048 rows, so the array ends holding the function. -/
import proofs.«121079_j30296699306632_1_alg».proof.Proof.KI.Body1
import proofs.«121079_j30296699306632_1_alg».proof.Proof.Spec
import proofs.«121079_j30296699306632_1_alg».proof.Proof.Payload
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Hebb ValueIdx

section Final1
-- the TensorCore's buffer contents when the region is entered
variable (V : (c : Dev nD) → (b : Ref sig .tc) → Buf (Elt Ideal) ((c : Thread nD τ).loc b))

/-- The whole-buffer rectangles' offsets are zero on both axes. -/
theorem zero_off1 : (![0, 0] : Fin 2 → Nat) = fun _ => 0 := funext fun a => by fin_cases a <;> rfl

/-- The block indices of the region's five windows at grid point t, decided over the eight points: the four
    row-block windows are at block row t, block column 0; the row of means is one block. -/
theorem row_idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ t.val < 8 :=
  (by decide +kernel : ∀ t : Fin grid1.N, _)

/-- Row p of the block of 256 rows at grid point t is row 256 t + p of the array. -/
def rowAt1 (t : Fin cfg1.N) (p : Fin 256) : Fin 2048 := ⟨256 * t.val + p.val, by have := (row_idx1 t).2.2.2.2.2.2.2.2.2.2; omega⟩

/-! ## The input blocks at a grid point, read off the entry contents -/

/-- The block of x at grid point t is rows 256 t + p of x. -/
theorem iblk1_0_apply (c : Dev nD) (x : FVec Ideal Sq .f32) (hx : V c main_arg0 = x) (t : Fin cfg1.N) (p : Fin 256) (j : Fin 2048) :
    (iblk1 V c 0 t : Vec Ideal S256x2048 .f32) (ix2 p j) = x (ix2 (rowAt1 t p) j) := by
  obtain ⟨e0, e1, -⟩ := row_idx1 t
  subst hx
  unfold iblk1
  rw [View.read_apply]
  show V c main_arg0 (((cfg1.win 0).blk t).view.emb (ix2 p j)) = V c main_arg0 (ix2 (rowAt1 t p) j)
  congr 1
  funext a
  apply Fin.ext
  match a with
  | ⟨0, _⟩ => show win1_0.index t (0 : Fin 2) * 256 + 1 * p.val = 256 * t.val + p.val; rw [e0]; omega
  | ⟨1, _⟩ => show win1_0.index t (1 : Fin 2) * 2048 + 1 * j.val = j.val; rw [e1]; omega

/-- The block of k at grid point t is rows 256 t + p of k. -/
theorem iblk1_1_apply (c : Dev nD) (k : FVec Ideal Sq .f32) (hk : V c main_arg1 = k) (t : Fin cfg1.N) (p : Fin 256) (j : Fin 2048) :
    (iblk1 V c 1 t : Vec Ideal S256x2048 .f32) (ix2 p j) = k (ix2 (rowAt1 t p) j) := by
  obtain ⟨-, -, e0, e1, -⟩ := row_idx1 t
  subst hk
  unfold iblk1
  rw [View.read_apply]
  show V c main_arg1 (((cfg1.win 1).blk t).view.emb (ix2 p j)) = V c main_arg1 (ix2 (rowAt1 t p) j)
  congr 1
  funext a
  apply Fin.ext
  match a with
  | ⟨0, _⟩ => show win1_1.index t (0 : Fin 2) * 256 + 1 * p.val = 256 * t.val + p.val; rw [e0]; omega
  | ⟨1, _⟩ => show win1_1.index t (1 : Fin 2) * 2048 + 1 * j.val = j.val; rw [e1]; omega

/-- The one block of the row of means, at every grid point, is the whole row. -/
theorem iblk1_2_apply (c : Dev nD) (mu : FVec Ideal Row .f32) (hm : V c main_v0 = mu) (t : Fin cfg1.N) (j : Fin 2048) :
    (iblk1 V c 2 t : Vec Ideal S1x2048 .f32) (ix2 (0 : Fin 1) j) = mu (ix2 (0 : Fin 1) j) := by
  obtain ⟨-, -, -, -, e0, e1, -⟩ := row_idx1 t
  subst hm
  unfold iblk1
  rw [View.read_apply]
  show V c main_v0 (((cfg1.win 2).blk t).view.emb (ix2 (0 : Fin 1) j)) = V c main_v0 (ix2 (0 : Fin 1) j)
  congr 1
  funext a
  apply Fin.ext
  match a with
  | ⟨0, _⟩ => show win1_2.index t (0 : Fin 2) * 1 + 1 * 0 = 0; rw [e0]
  | ⟨1, _⟩ => show win1_2.index t (1 : Fin 2) * 2048 + 1 * j.val = j.val; rw [e1]; omega

/-! ## What a grid point writes back -/

/-- Grid point t writes back, into the updated array, the block of 256 rows at block row t of
    k + step * (x * rowmean x). -/
theorem flushed1_4_eq (c : Dev nD) (x k : FVec Ideal Sq .f32) (hx : V c main_arg0 = x) (hk : V c main_arg1 = k) (t : Fin cfg1.N) :
    (dat1 V c).flushed 4 t = ((cfg1.win 4).blk t).view.read (Elt Ideal) (updated x k) := by
  show (cfg1.win 4).cut (grid1.coords t) ((dat1 V c).after 4 t) = _
  rw [after1_4]
  unfold out1_4
  rw [View.canon_unit_zero zero_off1]
  simp only [View.ld_unit_zero (S := S256x2048) zero_off1]
  obtain ⟨-, -, -, -, -, -, -, -, e0, e1, -⟩ := row_idx1 t
  funext j
  obtain ⟨p, q, rfl⟩ : ∃ (p : Fin 256) (q : Fin 2048), j = ix2 p q := ⟨j 0, j 1, eq_ix2 j⟩
  show k1_pay1 (F := Ideal) (iblk1 V c 0 t) (iblk1 V c 1 t) (ix2 p q) = updated x k (((cfg1.win 4).blk t).view.emb (ix2 p q))
  refine (updated_block _ _ x k (rowAt1 t) (iblk1_0_apply V c x hx t) (iblk1_1_apply V c k hk t) p q).trans ?_
  refine congrArg (updated x k) ?_
  funext a
  apply Fin.ext
  match a with
  | ⟨0, _⟩ => show 256 * t.val + p.val = win1_4.index t (0 : Fin 2) * 256 + 1 * p.val; rw [e0]; omega
  | ⟨1, _⟩ => show q.val = win1_4.index t (1 : Fin 2) * 2048 + 1 * q.val; rw [e1]; omega

/-- Grid point t writes back, into the scaled array, the block of 256 rows at block row t of (1 * k) scaled column by
    column by the row of means. -/
theorem flushed1_3_eq (c : Dev nD) (x k : FVec Ideal Sq .f32) (hk : V c main_arg1 = k) (hm : V c main_v0 = colMean x) (t : Fin cfg1.N) :
    (dat1 V c).flushed 3 t = ((cfg1.win 3).blk t).view.read (Elt Ideal) (scaled x k) := by
  show (cfg1.win 3).cut (grid1.coords t) ((dat1 V c).after 3 t) = _
  rw [after1_3]
  unfold out1_3
  rw [View.canon_unit_zero zero_off1]
  simp only [View.ld_unit_zero (S := S256x2048) zero_off1, View.ld_unit_zero (S := S1x2048) zero_off1]
  obtain ⟨-, -, -, -, -, -, e0, e1, -⟩ := row_idx1 t
  funext j
  obtain ⟨p, q, rfl⟩ : ∃ (p : Fin 256) (q : Fin 2048), j = ix2 p q := ⟨j 0, j 1, eq_ix2 j⟩
  show k1_pay2 (F := Ideal) (iblk1 V c 1 t) (iblk1 V c 2 t) (ix2 p q) = scaled x k (((cfg1.win 3).blk t).view.emb (ix2 p q))
  refine (scaled_block _ _ x k (rowAt1 t) (iblk1_1_apply V c k hk t) (iblk1_2_apply V c (colMean x) hm t) p q).trans ?_
  refine congrArg (scaled x k) ?_
  funext a
  apply Fin.ext
  match a with
  | ⟨0, _⟩ => show 256 * t.val + p.val = win1_3.index t (0 : Fin 2) * 256 + 1 * p.val; rw [e0]; omega
  | ⟨1, _⟩ => show q.val = win1_3.index t (1 : Fin 2) * 2048 + 1 * q.val; rw [e1]; omega

/-! ## The eight row blocks tile the array -/

/-- Every block row is some grid point's. -/
theorem row_onto1 : ∀ r : Fin 8, ∃ t : Fin cfg1.N, t.val = r.val :=
  (by decide +kernel : ∀ r : Fin 8, ∃ t : Fin grid1.N, t.val = r.val)

/-- An index of the scaled array is in grid point t's block iff each coordinate is in the block's range on its axis. -/
theorem mem_blk1_3 (t : Fin cfg1.N) (i : S2048x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v1_0).slice (win1_3.rect t)).set ↔ _
  rw [View.set_slice_whole, Rect.mem_set_unit]
  exact Iff.rfl

/-- The same of the updated array. -/
theorem mem_blk1_4 (t : Fin cfg1.N) (i : S2048x2048.Idx) :
    i ∈ ((cfg1.win 4).blk t).view.set ↔ ∀ a : Fin 2, win1_4.index t a * S256x2048.size a ≤ (i a).val ∧ (i a).val < win1_4.index t a * S256x2048.size a + S256x2048.size a := by
  show i ∈ ((View.whole main_v1_1).slice (win1_4.rect t)).set ↔ _
  rw [View.set_slice_whole, Rect.mem_set_unit]
  exact Iff.rfl

/-- Row r of the scaled array is in the block of grid point r / 256, which writes its block back. -/
theorem covered1_3 (i : S2048x2048.Idx) : ∃ t : Fin cfg1.N, (cfg1.win 3).flush t = true ∧ i ∈ ((cfg1.win 3).blk t).view.set := by
  have hi0 : (i 0).val < 2048 := (i 0).isLt
  have hi1 : (i 1).val < 2048 := (i 1).isLt
  obtain ⟨t, ht⟩ := row_onto1 ⟨(i 0).val / 256, by omega⟩
  have ht' : t.val = (i 0).val / 256 := ht
  obtain ⟨-, -, -, -, -, -, e0, e1, -⟩ := row_idx1 t
  refine ⟨t, flush1_3 t, ?_⟩
  rw [mem_blk1_3]
  intro a
  match a with
  | ⟨0, _⟩ => show win1_3.index t (0 : Fin 2) * 256 ≤ (i 0).val ∧ (i 0).val < win1_3.index t (0 : Fin 2) * 256 + 256; rw [e0]; omega
  | ⟨1, _⟩ => show win1_3.index t (1 : Fin 2) * 2048 ≤ (i 1).val ∧ (i 1).val < win1_3.index t (1 : Fin 2) * 2048 + 2048; rw [e1]; omega

/-- The same of the updated array. -/
theorem covered1_4 (i : S2048x2048.Idx) : ∃ t : Fin cfg1.N, (cfg1.win 4).flush t = true ∧ i ∈ ((cfg1.win 4).blk t).view.set := by
  have hi0 : (i 0).val < 2048 := (i 0).isLt
  have hi1 : (i 1).val < 2048 := (i 1).isLt
  obtain ⟨t, ht⟩ := row_onto1 ⟨(i 0).val / 256, by omega⟩
  have ht' : t.val = (i 0).val / 256 := ht
  obtain ⟨-, -, -, -, -, -, -, -, e0, e1, -⟩ := row_idx1 t
  refine ⟨t, flush1_4 t, ?_⟩
  rw [mem_blk1_4]
  intro a
  match a with
  | ⟨0, _⟩ => show win1_4.index t (0 : Fin 2) * 256 ≤ (i 0).val ∧ (i 0).val < win1_4.index t (0 : Fin 2) * 256 + 256; rw [e0]; omega
  | ⟨1, _⟩ => show win1_4.index t (1 : Fin 2) * 2048 ≤ (i 1).val ∧ (i 1).val < win1_4.index t (1 : Fin 2) * 2048 + 2048; rw [e1]; omega

/-! ## The two output arrays after the last grid point -/

/-- The scaled array ends holding (1 * k) scaled column by column by the row of means, when the region finds k in
    its second argument and the row of means of x in its third. -/
theorem final1_3 (c : Dev nD) (x k : FVec Ideal Sq .f32) (hk : V c main_arg1 = k) (hm : V c main_v0 = colMean x) :
    (dat1 V c).arrAt 3 cfg1.N = scaled x k :=
  (dat1 V c).arrAt_eq_of_cover 3 (scaled x k) (fun t _ => flushed1_3_eq V c x k hk hm t) covered1_3

/-- The updated array ends holding k + step * (x * rowmean x), when the region finds x and k in its first two
    arguments. -/
theorem final1_4 (c : Dev nD) (x k : FVec Ideal Sq .f32) (hx : V c main_arg0 = x) (hk : V c main_arg1 = k) :
    (dat1 V c).arrAt 4 cfg1.N = updated x k :=
  (dat1 V c).arrAt_eq_of_cover 4 (updated x k) (fun t _ => flushed1_4_eq V c x k hx hk t) covered1_4

end Final1

end Cert.KernelIdeal.Hand

end
-- ==== Proof.KI.Value.lean ====
/-
  The idealized kernel's two results as functions of its arguments. The first region leaves the column means of
  x ∘ xᵀ in its row vector; the second finds them there beside x and k, and leaves k scaled column by column by
  those means in the first result and k + η · (x scaled row by row by its row means) in the second. Both facts are
  read off the run: each result array is what its eight row blocks' write-backs left, and those blocks are the
  restrictions of one whole-array function.
-/
import proofs.«121079_j30296699306632_1_alg».proof.Proof.Gen.KernelIdeal.Launch
import proofs.«121079_j30296699306632_1_alg».proof.Proof.Gen.KernelIdeal.Skeleton
import proofs.«121079_j30296699306632_1_alg».proof.Proof.Gen.KernelIdeal.Points
import proofs.«121079_j30296699306632_1_alg».proof.Proof.KI.Run
import proofs.«121079_j30296699306632_1_alg».proof.Proof.KI.Final0
import proofs.«121079_j30296699306632_1_alg».proof.Proof.KI.Final1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Hebb

/-- At the ideal instance, from any memory with zero counters: the program runs, its first result ends at the scaled
    array and its second at the updated array of the two arguments as launched, and the arguments end unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1_0) = scaled (m ((c.tc : Thread nD τ).loc main_arg0)) (m ((c.tc : Thread nD τ).loc main_arg1))
      ∧ r.2.mem ((c.tc : Thread nD τ).loc main_v1_1) = updated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_results (F := Ideal) m ρ)
  have hx : B1 m c main_arg0 = m ((c.tc : Thread nD τ).loc main_arg0) := U1_of m c main_arg0 (by decide)
  have hk : B1 m c main_arg1 = m ((c.tc : Thread nD τ).loc main_arg1) := U1_of m c main_arg1 (by decide)
  have hm : B1 m c main_v0 = colMean (m ((c.tc : Thread nD τ).loc main_arg0)) :=
    (U1_v0 m c).trans (final0_2 (B0 m) c _ rfl)
  exact ⟨(h c).1.trans (final1_3 (B1 m) c _ _ hk hm), (h c).2.1.trans (final1_4 (B1 m) c _ _ hx hk), (h c).2.2⟩

end Cert.KernelIdeal.Hand

end
-- ==== Proof.RefSide.lean ====
/-
  The reference computes the specification: its two results, read one operation at a time, are `scaled` and `updated`.

  The host's sums start from the zero word and add the terms; the zero word is the extended real `0`, so each is the
  plain sum of the specification. Its broadcasts read the reduced vectors at the column (for the column means) or at the
  row (for the row means) of the index.
-/
import proofs.«121079_j30296699306632_1_alg».proof.Proof.Spec
import proofs.«121079_j30296699306632_1_alg».proof.Proof.Gen.ReferenceIdeal.Read

noncomputable section

open scoped BigOperators

namespace Cert.Hebb

open Idealize.ShloMosaic ValueIdx
open Cert.ReferenceIdeal Cert.ReferenceIdeal.Read

/-- The reference's vector of column means, at column `j`. -/
theorem ref_colMean (x : FVec Ideal Sq .f32) (j : Fin 2048) :
    val_main_v4 (F := Ideal) x (ix1 j) = colMeanAt x j := by
  rw [val_main_v4_apply, val_main_v2_apply, val_main_v3_apply, val_main_cst_0_apply, val_main_cst_apply]
  unfold colMeanAt
  show Ideal.div (Ideal.ofBits .f32 0x00000000#32 + _) wN = _
  rw [Ideal.ofBits_zero_f32, zero_add]
  refine congrArg (Ideal.div · wN) (Finset.sum_congr rfl fun i _ => ?_)
  rw [val_main_v1_apply, val_main_v0_apply]
  show x _ * x _ = x _ * x _
  congr 1 <;> exact congrArg x (funext fun c => Fin.ext (by match c with | ⟨0, _⟩ => rfl | ⟨1, _⟩ => rfl))

/-- The reference's column of row means, at row `i`. -/
theorem ref_rowMean (x : FVec Ideal Sq .f32) (i : Fin 2048) :
    val_main_v13 (F := Ideal) x (ix2 i (0 : Fin 1)) = rowMeanAt x i := by
  rw [val_main_v13_apply, val_main_v11_apply, val_main_v10_apply, val_main_v12_apply, val_main_cst_3_apply,
    val_main_cst_2_apply]
  unfold rowMeanAt
  show Ideal.div (Ideal.ofBits .f32 0x00000000#32 + _) wN = _
  rw [Ideal.ofBits_zero_f32, zero_add]
  refine congrArg (Ideal.div · wN) (Finset.sum_congr rfl fun l _ => ?_)
  exact congrArg x (funext fun c => Fin.ext (by match c with | ⟨0, _⟩ => rfl | ⟨1, _⟩ => rfl))

/-- The reference's first result is `scaled`. -/
theorem ref_scaled (x k : FVec Ideal Sq .f32) : val_main_v9 (F := Ideal) x k = scaled x k := by
  funext i
  obtain ⟨a, b, rfl⟩ : ∃ (a b : Fin 2048), i = ix2 a b := ⟨i 0, i 1, eq_ix2 i⟩
  rw [val_main_v9_apply, val_main_v6_apply, val_main_v5_apply, val_main_cst_1_apply, val_main_v8_apply,
    val_main_v7_apply]
  have hidx : idx_main_v7 (idx_main_v8 (ix2 a b)) = ix1 b :=
    funext fun c => Fin.ext (by match c with | ⟨0, _⟩ => rfl)
  rw [hidx, ref_colMean]
  rfl

/-- The reference's second result is `updated`. -/
theorem ref_updated (x k : FVec Ideal Sq .f32) : val_main_v18 (F := Ideal) x k = updated x k := by
  funext i
  obtain ⟨a, b, rfl⟩ : ∃ (a b : Fin 2048), i = ix2 a b := ⟨i 0, i 1, eq_ix2 i⟩
  rw [val_main_v18_apply, val_main_v17_apply, val_main_v16_apply, val_main_cst_4_apply, val_main_v15_apply,
    val_main_v14_apply]
  have hidx : idx_main_v14 (ix2 a b) = ix2 a (0 : Fin 1) :=
    funext fun c => Fin.ext (by match c with | ⟨0, _⟩ => rfl | ⟨1, _⟩ => rfl)
  rw [hidx, ref_rowMean]
  rfl

end Cert.Hebb

end
-- ==== Proof.lean ====
/-
  Two programs compute, from x and k (both 2048 × 2048): the column means m_j = (Σ_i x_ij · x_ji) / 2048, the array
  (1 · k_ij) · m_j, and the array k_ij + η · (x_ij · (Σ_l x_il) / 2048). The kernel does it in two grid regions — the
  first writes the 2048 means block by block (each block from a column block and a row block of x), the second
  writes the two arrays row block by row block —; the reference in one line of array operations. Over the extended
  reals both are the same functions of x and k, entry by entry, with the same literals on both sides, so no
  finiteness is used. Each program's frame (it terminates, faults nowhere, leaves x and k as launched) comes from
  its run; the idealization rewrote no operation, so there is nothing to preserve.
-/
import proofs.«121079_j30296699306632_1_alg».proof.Defs
import proofs.«121079_j30296699306632_1_alg».proof.Proof.Gen.Kernel
import proofs.«121079_j30296699306632_1_alg».proof.Proof.Gen.KernelIdeal
import proofs.«121079_j30296699306632_1_alg».proof.Proof.Gen.ReferenceIdeal
import proofs.«121079_j30296699306632_1_alg».proof.Proof.Gen.Pre_finite_inputs
import proofs.«121079_j30296699306632_1_alg».proof.Proof.Gen.ReferenceIdeal.Read
import proofs.«121079_j30296699306632_1_alg».proof.Proof.K.Run
import proofs.«121079_j30296699306632_1_alg».proof.Proof.KI.Value
import proofs.«121079_j30296699306632_1_alg».proof.Proof.RefSide

noncomputable section

namespace Cert.Proof

open Idealize.ShloMosaic Idealize.ShloMosaic.TcCoe Idealize.SL.Sem Cert.Hebb

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a line of array operations: its run names every result, and keeps the arguments. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the scaled array and the updated array of the common arguments. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v9_eq, ref_scaled, (hagree c).1, (hagree c).2]
  · rw [(h c).2.1, Cert.ReferenceIdeal.Read.val_main_v18_eq, ref_updated, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
